-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x224x224 : Shape := ⟨3, ![4, 224, 224]⟩
abbrev S224x128 : Shape := ⟨2, ![224, 128]⟩
abbrev S_ : Shape := ⟨0, ![]⟩

class Facts : Prop where
  bcast_S_S224x128 : S_.BroadcastsInDim S224x128 (![] : Fin 0 → Fin S224x128.rank)
  reducesTo_S224x128_S_d0_1 : S224x128.ReducesTo [0, 1] S_
  h_S_ : 0 < S_.numel
  bcast_S_S4x224x224 : S_.BroadcastsInDim S4x224x224 (![] : Fin 0 → Fin S4x224x224.rank)
  reducesTo_S4x224x224_S_d0_1_2 : S4x224x224.ReducesTo [0, 1, 2] S_

variable [Facts]

def fn_part1 {F : FTy → Type} [FloatOps F] (main_arg1 : IVec S4x224x224 32) (main_v12 : IVec S_ 1) (main_v15 : IVec S_ 1) : IVec S_ 1 :=
  let main_v16 : IVec S_ 1 := andi main_v12 main_v15
  let main_c_6 : IVec S_ 32 := constantI S_ 32 0#32
  let main_v17 : IVec S4x224x224 32 := broadcastInDim S4x224x224 ![] bcast_S_S4x224x224 main_c_6
  let main_v18 : IVec S4x224x224 1 := cmpi .sge main_arg1 main_v17
  let main_c_7 : IVec S_ 1 := constantI S_ 1 1#1
  let main_v19 : IVec S_ 1 := (fun x v => Host.reduce IntOp.andi x v reducesTo_S4x224x224_S_d0_1_2 h_S_) main_v18 main_c_7
  let main_v20 : IVec S_ 1 := andi main_v16 main_v19
  let main_c_8 : IVec S_ 32 := constantI S_ 32 224#32
  let main_v21 : IVec S4x224x224 32 := broadcastInDim S4x224x224 ![] bcast_S_S4x224x224 main_c_8
  let main_v22 : IVec S4x224x224 1 := cmpi .slt main_arg1 main_v21
  let main_c_9 : IVec S_ 1 := constantI S_ 1 1#1
  let main_v23 : IVec S_ 1 := (fun x v => Host.reduce IntOp.andi x v reducesTo_S4x224x224_S_d0_1_2 h_S_) main_v22 main_c_9
  let main_v24 : IVec S_ 1 := andi main_v20 main_v23
  main_v24

def fn {F : FTy → Type} [FloatOps F] (main_arg0 : IVec S4x224x224 32) (main_arg1 : IVec S4x224x224 32) (main_arg2 : FVec F S224x128 .f32) (main_arg3 : FVec F S224x128 .f32) : IVec S_ 1 :=
  let main_v0 : FVec F S224x128 .f32 := Host.absf main_arg2
  let main_cst : FVec F S_ .f32 := constant S_ .f32 0x7F800000#32
  let main_v1 : FVec F S224x128 .f32 := broadcastInDim S224x128 ![] bcast_S_S224x128 main_cst
  let main_v2 : IVec S224x128 1 := cmpf .olt main_v0 main_v1
  let main_c : IVec S_ 1 := constantI S_ 1 1#1
  let main_v3 : IVec S_ 1 := (fun x v => Host.reduce IntOp.andi x v reducesTo_S224x128_S_d0_1 h_S_) main_v2 main_c
  let main_v4 : FVec F S224x128 .f32 := Host.absf main_arg3
  let main_cst_0 : FVec F S_ .f32 := constant S_ .f32 0x7F800000#32
  let main_v5 : FVec F S224x128 .f32 := broadcastInDim S224x128 ![] bcast_S_S224x128 main_cst_0
  let main_v6 : IVec S224x128 1 := cmpf .olt main_v4 main_v5
  let main_c_1 : IVec S_ 1 := constantI S_ 1 1#1
  let main_v7 : IVec S_ 1 := (fun x v => Host.reduce IntOp.andi x v reducesTo_S224x128_S_d0_1 h_S_) main_v6 main_c_1
  let main_v8 : IVec S_ 1 := andi main_v3 main_v7
  let main_c_2 : IVec S_ 32 := constantI S_ 32 0#32
  let main_v9 : IVec S4x224x224 32 := broadcastInDim S4x224x224 ![] bcast_S_S4x224x224 main_c_2
  let main_v10 : IVec S4x224x224 1 := cmpi .sge main_arg0 main_v9
  let main_c_3 : IVec S_ 1 := constantI S_ 1 1#1
  let main_v11 : IVec S_ 1 := (fun x v => Host.reduce IntOp.andi x v reducesTo_S4x224x224_S_d0_1_2 h_S_) main_v10 main_c_3
  let main_v12 : IVec S_ 1 := andi main_v8 main_v11
  let main_c_4 : IVec S_ 32 := constantI S_ 32 224#32
  let main_v13 : IVec S4x224x224 32 := broadcastInDim S4x224x224 ![] bcast_S_S4x224x224 main_c_4
  let main_v14 : IVec S4x224x224 1 := cmpi .slt main_arg0 main_v13
  let main_c_5 : IVec S_ 1 := constantI S_ 1 1#1
  let main_v15 : IVec S_ 1 := (fun x v => Host.reduce IntOp.andi x v reducesTo_S4x224x224_S_d0_1_2 h_S_) main_v14 main_c_5
  fn_part1 (F := F) main_arg1 main_v12 main_v15
-- ==== Kernel.lean ====
abbrev S4x224x224 : Shape := ⟨3, ![4, 224, 224]⟩
abbrev S224x128 : Shape := ⟨2, ![224, 128]⟩
abbrev S4x256x224x224 : Shape := ⟨4, ![4, 256, 224, 224]⟩
abbrev S1x8x224 : Shape := ⟨3, ![1, 8, 224]⟩
abbrev S1x256x8x224 : Shape := ⟨4, ![1, 256, 8, 224]⟩
abbrev S8x224 : Shape := ⟨2, ![8, 224]⟩
abbrev S1x1792 : Shape := ⟨2, ![1, 1792]⟩
abbrev S224x1792 : Shape := ⟨2, ![224, 1792]⟩
abbrev S128x1792 : Shape := ⟨2, ![128, 1792]⟩
abbrev S128x8x224 : Shape := ⟨3, ![128, 8, 224]⟩
abbrev S1x128x8x224 : Shape := ⟨4, ![1, 128, 8, 224]⟩

abbrev nBuf : Space → Nat
  | .hbm => 5
  | .vmem => 8
  | .smem => 0
  | _ => 0

abbrev bufTy : (tb : Table) → Fin (tcTables nBuf tb) → BufTy
  | .hbm, ⟨0, _⟩ => ⟨S4x224x224, .i32⟩
  | .hbm, ⟨1, _⟩ => ⟨S4x224x224, .i32⟩
  | .hbm, ⟨2, _⟩ => ⟨S224x128, .f32⟩
  | .hbm, ⟨3, _⟩ => ⟨S224x128, .f32⟩
  | .hbm, ⟨4, _⟩ => ⟨S4x256x224x224, .f32⟩
  | .local _ .vmem, ⟨0, _⟩ => ⟨S1x8x224, .i32⟩
  | .local _ .vmem, ⟨1, _⟩ => ⟨S1x8x224, .i32⟩
  | .local _ .vmem, ⟨2, _⟩ => ⟨S1x8x224, .i32⟩
  | .local _ .vmem, ⟨3, _⟩ => ⟨S1x8x224, .i32⟩
  | .local _ .vmem, ⟨4, _⟩ => ⟨S224x128, .f32⟩
  | .local _ .vmem, ⟨5, _⟩ => ⟨S224x128, .f32⟩
  | .local _ .vmem, ⟨6, _⟩ => ⟨S1x256x8x224, .f32⟩
  | .local _ .vmem, ⟨7, _⟩ => ⟨S1x256x8x224, .f32⟩
  | _, _ => ⟨S4x224x224, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 28], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x224 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x224 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S224x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x8x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x8x224_S1x8x224_0_0_0 : ∀ a, (![0, 0, 0] : Fin 3 → Nat) a + S1x8x224.size a ≤ S1x8x224.size a
  h_S1x8x224 : 0 < S1x8x224.numel
  shapeCasts_S1x8x224_S8x224 : S1x8x224.ShapeCasts S8x224
  inb_S224x128_S224x128_0_0 : ∀ a, (![0, 0] : Fin 2 → Nat) a + S224x128.size a ≤ S224x128.size a
  h_S224x128 : 0 < S224x128.numel
  shapeCasts_S8x224_S1x1792 : S8x224.ShapeCasts S1x1792
  iota_S224x1792_d0_w32 : S224x1792.Iotas .tc 32 [0]
  broadcasts_S1x1792_S224x1792 : S1x1792.Broadcasts S224x1792
  natLt_1_32 : 1 < 32
  shapeCasts_S128x1792_S128x8x224 : S128x1792.ShapeCasts S128x8x224
  inb_S1x256x8x224_S1x128x8x224_0_0_0_0 : ∀ a, (![0, 0, 0, 0] : Fin 4 → Nat) a + S1x128x8x224.size a ≤ S1x256x8x224.size a
  h_S1x128x8x224 : 0 < S1x128x8x224.numel
  shapeCasts_S1x128x8x224_S128x8x224 : S1x128x8x224.ShapeCasts S128x8x224
  shapeCasts_S128x8x224_S1x128x8x224 : S128x8x224.ShapeCasts S1x128x8x224
  inb_S1x256x8x224_S1x128x8x224_0_128_0_0 : ∀ a, (![0, 128, 0, 0] : Fin 4 → Nat) a + S1x128x8x224.size a ≤ S1x256x8x224.size a
  dot_S224x128_S224x1792_S128x1792_0_0_1_1_n_n_wf : DotDims.WF S224x128 S224x1792 S128x1792 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x224.size a ≤ S4x224x224.size a
  hwx0_0 : ∀ i : grid0.Coords, EltTy.bits .i32 = 32 ∨ (Rect.block (s := S4x224x224) S1x8x224.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x224.size a ≤ S4x224x224.size a
  hwx0_1 : ∀ i : grid0.Coords, EltTy.bits .i32 = 32 ∨ (Rect.block (s := S4x224x224) S1x8x224.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S224x128.size a ≤ S224x128.size a
  hwx0_2 : ∀ i : grid0.Coords, EltTy.bits .f32 = 32 ∨ (Rect.block (s := S224x128) S224x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S224x128.size a ≤ S224x128.size a
  hwx0_3 : ∀ i : grid0.Coords, EltTy.bits .f32 = 32 ∨ (Rect.block (s := S224x128) S224x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x8x224.size a ≤ S4x256x224x224.size a
  hwx0_4 : ∀ i : grid0.Coords, EltTy.bits .f32 = 32 ∨ (Rect.block (s := S4x256x224x224) S1x256x8x224.size (cc0_transform_4 i) (hinb0_4 i)).WholeWords (EltTy.packing .f32)

variable [Facts₀]

def dot_S224x128_S224x1792_S128x1792_0_0_1_1_n_n : DotDims S224x128 S224x1792 S128x1792 where
  lhsContracting := [0]
  rhsContracting := [0]
  lhsNonContracting := [1]
  rhsNonContracting := [1]
  lhsBatch := []
  rhsBatch := []
  wf := dot_S224x128_S224x1792_S128x1792_0_0_1_1_n_n_wf

abbrev win0_0 : Pipeline.Window sig grid0 :=
  Pipeline.Window.ofSpec (Memref.whole main_arg0) S1x8x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S224x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S224x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x8x224.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x224x224 : Shape := ⟨3, ![4, 224, 224]⟩
abbrev S224x128 : Shape := ⟨2, ![224, 128]⟩
abbrev S_ : Shape := ⟨0, ![]⟩
abbrev S4x224x224x1 : Shape := ⟨4, ![4, 224, 224, 1]⟩
abbrev S1 : Shape := ⟨1, ![1]⟩
abbrev S1x1x1x1 : Shape := ⟨4, ![1, 1, 1, 1]⟩
abbrev S4x224x224x128 : Shape := ⟨4, ![4, 224, 224, 128]⟩
abbrev S4x128x224x224 : Shape := ⟨4, ![4, 128, 224, 224]⟩
abbrev S4x256x224x224 : Shape := ⟨4, ![4, 256, 224, 224]⟩

abbrev nBuf : Space → Nat
  | .hbm => 53
  | .vmem => 0
  | .smem => 0
  | _ => 0

abbrev bufTy : (tb : Table) → Fin (tcTables nBuf tb) → BufTy
  | .hbm, ⟨0, _⟩ => ⟨S4x224x224, .i32⟩
  | .hbm, ⟨1, _⟩ => ⟨S4x224x224, .i32⟩
  | .hbm, ⟨2, _⟩ => ⟨S224x128, .f32⟩
  | .hbm, ⟨3, _⟩ => ⟨S224x128, .f32⟩
  | .hbm, ⟨4, _⟩ => ⟨S_, .i32⟩
  | .hbm, ⟨5, _⟩ => ⟨S4x224x224, .i32⟩
  | .hbm, ⟨6, _⟩ => ⟨S4x224x224, .i1⟩
  | .hbm, ⟨7, _⟩ => ⟨S_, .i32⟩
  | .hbm, ⟨8, _⟩ => ⟨S4x224x224, .i32⟩
  | .hbm, ⟨9, _⟩ => ⟨S4x224x224, .i32⟩
  | .hbm, ⟨10, _⟩ => ⟨S4x224x224, .i32⟩
  | .hbm, ⟨11, _⟩ => ⟨S4x224x224x1, .i32⟩
  | .hbm, ⟨12, _⟩ => ⟨S1, .i32⟩
  | .hbm, ⟨13, _⟩ => ⟨S_, .i32⟩
  | .hbm, ⟨14, _⟩ => ⟨S4x224x224x1, .i32⟩
  | .hbm, ⟨15, _⟩ => ⟨S4x224x224x1, .i1⟩
  | .hbm, ⟨16, _⟩ => ⟨S1x1x1x1, .i32⟩
  | .hbm, ⟨17, _⟩ => ⟨S4x224x224x1, .i32⟩
  | .hbm, ⟨18, _⟩ => ⟨S4x224x224x1, .i1⟩
  | .hbm, ⟨19, _⟩ => ⟨S4x224x224x1, .i1⟩
  | .hbm, ⟨20, _⟩ => ⟨S_, .i1⟩
  | .hbm, ⟨21, _⟩ => ⟨S4x224x224, .i1⟩
  | .hbm, ⟨22, _⟩ => ⟨S4x224x224x128, .f32⟩
  | .hbm, ⟨23, _⟩ => ⟨S4x224x224x128, .i1⟩
  | .hbm, ⟨24, _⟩ => ⟨S_, .f32⟩
  | .hbm, ⟨25, _⟩ => ⟨S4x224x224x128, .f32⟩
  | .hbm, ⟨26, _⟩ => ⟨S4x224x224x128, .f32⟩
  | .hbm, ⟨27, _⟩ => ⟨S_, .i32⟩
  | .hbm, ⟨28, _⟩ => ⟨S4x224x224, .i32⟩
  | .hbm, ⟨29, _⟩ => ⟨S4x224x224, .i1⟩
  | .hbm, ⟨30, _⟩ => ⟨S_, .i32⟩
  | .hbm, ⟨31, _⟩ => ⟨S4x224x224, .i32⟩
  | .hbm, ⟨32, _⟩ => ⟨S4x224x224, .i32⟩
  | .hbm, ⟨33, _⟩ => ⟨S4x224x224, .i32⟩
  | .hbm, ⟨34, _⟩ => ⟨S4x224x224x1, .i32⟩
  | .hbm, ⟨35, _⟩ => ⟨S1, .i32⟩
  | .hbm, ⟨36, _⟩ => ⟨S_, .i32⟩
  | .hbm, ⟨37, _⟩ => ⟨S4x224x224x1, .i32⟩
  | .hbm, ⟨38, _⟩ => ⟨S4x224x224x1, .i1⟩
  | .hbm, ⟨39, _⟩ => ⟨S1x1x1x1, .i32⟩
  | .hbm, ⟨40, _⟩ => ⟨S4x224x224x1, .i32⟩
  | .hbm, ⟨41, _⟩ => ⟨S4x224x224x1, .i1⟩
  | .hbm, ⟨42, _⟩ => ⟨S4x224x224x1, .i1⟩
  | .hbm, ⟨43, _⟩ => ⟨S_, .i1⟩
  | .hbm, ⟨44, _⟩ => ⟨S4x224x224, .i1⟩
  | .hbm, ⟨45, _⟩ => ⟨S4x224x224x128, .f32⟩
  | .hbm, ⟨46, _⟩ => ⟨S4x224x224x128, .i1⟩
  | .hbm, ⟨47, _⟩ => ⟨S_, .f32⟩
  | .hbm, ⟨48, _⟩ => ⟨S4x224x224x128, .f32⟩
  | .hbm, ⟨49, _⟩ => ⟨S4x224x224x128, .f32⟩
  | .hbm, ⟨50, _⟩ => ⟨S4x128x224x224, .f32⟩
  | .hbm, ⟨51, _⟩ => ⟨S4x128x224x224, .f32⟩
  | .hbm, ⟨52, _⟩ => ⟨S4x256x224x224, .f32⟩
  | _, _ => ⟨S4x224x224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩

abbrev nD : Nat := 1
abbrev τ : Topo := Topo.v7x

variable {F : FTy → Type} [FloatOps F]

class Facts₀ : Prop where
  bcast_S_S4x224x224 : S_.BroadcastsInDim S4x224x224 (![] : Fin 0 → Fin S4x224x224.rank)
  bcast_S4x224x224_S4x224x224x1_0_1_2 : S4x224x224.BroadcastsInDim S4x224x224x1 (![0, 1, 2] : Fin 3 → Fin S4x224x224x1.rank)
  bcast_S_S4x224x224x1 : S_.BroadcastsInDim S4x224x224x1 (![] : Fin 0 → Fin S4x224x224x1.rank)
  bcast_S1_S1x1x1x1_3 : S1.BroadcastsInDim S1x1x1x1 (![3] : Fin 1 → Fin S1x1x1x1.rank)
  bcast_S1x1x1x1_S4x224x224x1_0_1_2_3 : S1x1x1x1.BroadcastsInDim S4x224x224x1 (![0, 1, 2, 3] : Fin 4 → Fin S4x224x224x1.rank)
  reducesTo_S4x224x224x1_S4x224x224_d3 : S4x224x224x1.ReducesTo [3] S4x224x224
  h_S_ : 0 < S_.numel
  bcast_S4x224x224_S4x224x224x128_0_1_2 : S4x224x224.BroadcastsInDim S4x224x224x128 (![0, 1, 2] : Fin 3 → Fin S4x224x224x128.rank)
  bcast_S_S4x224x224x128 : S_.BroadcastsInDim S4x224x224x128 (![] : Fin 0 → Fin S4x224x224x128.rank)
  transposes_S4x224x224x128_S4x128x224x224_0_3_1_2 : S4x224x224x128.Transposes [0, 3, 1, 2] S4x128x224x224
  concatenates_S4x128x224x224_S4x128x224x224_S4x256x224x224_d1 : Shape.Concatenates [S4x128x224x224, S4x128x224x224] S4x256x224x224 1
  gather_S224x128_S4x224x224x1_S4x224x224x128_3_0_n_n_0_3_1128_wf : GatherDims.WF S224x128 S4x224x224x1 S4x224x224x128 [3] [0] [] [0] [] 3 ![1, 128]

variable [Facts₀]

def gather_S224x128_S4x224x224x1_S4x224x224x128_3_0_n_n_0_3_1128 : GatherDims S224x128 S4x224x224x1 S4x224x224x128 where
  offsetDims := [3]
  collapsedSliceDims := [0]
  operandBatchingDims := []
  startIndicesBatchingDims := []
  startIndexMap := [0]
  indexVectorDim := 3
  sliceSizes := ![1, 128]
  wf := gather_S224x128_S4x224x224x1_S4x224x224x128_3_0_n_n_0_3_1128_wf

class Facts : Prop extends Facts₀ where

variable [Facts]
-- ==== Proof.Spec.lean ====
/-
  The function both programs compute, stated once over the argument arrays.

  Two tables of 224 rows and 128 columns are read by two arrays of row numbers of shape [4, 224, 224]. The result has shape
  [4, 256, 224, 224]: at batch `b`, channel `ch`, position `(h, w)` it holds, for `ch < 128`, column `ch` of the row of the
  first table that the first index array names at `(b, h, w)`, and for `ch ≥ 128` column `ch - 128` of the row of the second
  table that the second index array names there. A row number is a 32-bit word; it is read as a natural number, and the
  statement is used only where every row number is below 224 (`InRange`), which is the domain on which a table lookup
  means anything.
-/
import Idealize.ShloMosaic.PureOps.Ideal
import Idealize.ShloMosaic.Lib.ValueIdx

noncomputable section

namespace Cert.Lookup

open Idealize.ShloMosaic Idealize.ShloMosaic.ValueIdx

/-- The index arrays' shape. -/
abbrev SPos : Shape := ⟨3, ![4, 224, 224]⟩
/-- A table's shape. -/
abbrev STab : Shape := ⟨2, ![224, 128]⟩
/-- The result's shape. -/
abbrev SRes : Shape := ⟨4, ![4, 256, 224, 224]⟩

/-- Every row number of an index array is below the tables' 224 rows. -/
def InRange (I : IVec SPos 32) : Prop := ∀ p : SPos.Idx, (I p).toNat < 224

/-- Column `c` of row `k` of a table, the row number a word read as a natural number (and held inside the table). -/
def row (T : FVec Ideal STab .f32) (k : BitVec 32) (c : Fin 128) : EReal :=
  T (ix2 (⟨min k.toNat 223, by omega⟩ : Fin 224) c)

/-- The position `(b, h, w)` of a result index `(b, ch, h, w)`. -/
def pos (y : SRes.Idx) : SPos.Idx :=
  ix3 (⟨(y 0).val, (y 0).isLt⟩ : Fin 4) (⟨(y 2).val, (y 2).isLt⟩ : Fin 224) (⟨(y 3).val, (y 3).isLt⟩ : Fin 224)

/-- THE RESULT: the first 128 channels look the first table up, the last 128 the second. -/
def G (I J : IVec SPos 32) (TI TJ : FVec Ideal STab .f32) : FVec Ideal SRes .f32 := fun y =>
  if h : (y 1).val < 128 then row TI (I (pos y)) ⟨(y 1).val, h⟩
  else row TJ (J (pos y)) ⟨(y 1).val - 128, by have := (y 1).isLt; simp only [Matrix.cons_val_one, Matrix.cons_val_zero] at this; omega⟩

theorem G_lo (I J : IVec SPos 32) (TI TJ : FVec Ideal STab .f32) (y : SRes.Idx) (h : (y 1).val < 128) :
    G I J TI TJ y = row TI (I (pos y)) ⟨(y 1).val, h⟩ := dif_pos h

theorem G_hi (I J : IVec SPos 32) (TI TJ : FVec Ideal STab .f32) (y : SRes.Idx) (h : ¬ (y 1).val < 128) (h' : (y 1).val - 128 < 128) :
    G I J TI TJ y = row TJ (J (pos y)) ⟨(y 1).val - 128, h'⟩ := dif_neg h

/-- Inside the table the row number is read as it is. -/
theorem row_of_lt (T : FVec Ideal STab .f32) (k : BitVec 32) (c : Fin 128) (hk : k.toNat < 224) :
    row T k c = T (ix2 (⟨k.toNat, hk⟩ : Fin 224) c) := by
  unfold row
  congr 2
  exact Fin.ext (by simp only []; omega)

end Cert.Lookup

end
-- ==== Proof.PreRange.lean ====
/-
  What the precondition says of the two index arrays.

  The precondition is a conjunction of six one-bit words, each the "and" of a one-bit array over all of its positions.
  Four of them concern the index arrays: for each array, that every entry compares signed-greater-or-equal to 0, and
  that every entry compares signed-less-than 224. A conjunction of one-bit words that is 1 has every conjunct 1; an "and"
  over all positions that is 1 has a 1 at every position; and a 32-bit word whose signed reading lies in [0, 224) has an
  unsigned reading below 224, because a word with a nonnegative signed reading reads the same signed and unsigned.
  The two conjuncts about the tables (their entries are finite) play no part here.
-/
import Idealize.ShloMosaic.Lib.ReduceAll
import proofs.«141317_g11948599017628_cont_main2_544_2_alg».proof.Pre_finite_inputs
import proofs.«141317_g11948599017628_cont_main2_544_2_alg».proof.Proof.Spec

namespace Cert.Pre_finite_inputs.Range

open Idealize.ShloMosaic Idealize.ShloMosaic.ValueIdx

/-- The rank-0 shape has exactly one index. -/
instance : Subsingleton S_.Idx := ⟨fun _ _ => funext fun d => d.elim0⟩

/-- A word whose signed reading is at least that of 0 and below that of 224 reads, unsigned, below 224. -/
theorem toNat_lt_of_signed (k : BitVec 32) (h0 : (0#32 : BitVec 32).toInt ≤ k.toInt)
    (h1 : k.toInt < (224#32 : BitVec 32).toInt) : k.toNat < 224 := by
  have e0 : (0#32 : BitVec 32).toInt = 0 := by decide
  have e1 : (224#32 : BitVec 32).toInt = 224 := by decide
  rw [e0] at h0
  rw [e1] at h1
  rw [BitVec.toInt_eq_toNat_cond] at h0 h1
  split at h0 <;> omega

/-- One array: if the two comparisons with the broadcast constants 0 and 224 are 1 at a position, the entry there is
    below 224. The comparison at a position compares the entry with the constant, which a broadcast scalar is everywhere. -/
theorem toNat_lt_of_cmp (I : IVec S4x224x224 32) (bc : S_.BroadcastsInDim S4x224x224 (![] : Fin 0 → Fin S4x224x224.rank))
    (p : S4x224x224.Idx)
    (hge : cmpi .sge I (broadcastInDim S4x224x224 ![] bc (constantI S_ 32 0#32)) p = 1#1)
    (hlt : cmpi .slt I (broadcastInDim S4x224x224 ![] bc (constantI S_ 32 224#32)) p = 1#1) : (I p).toNat < 224 := by
  have hge' : IntOp.cmpi .sge (I p) 0#32 = 1#1 := hge
  have hlt' : IntOp.cmpi .slt (I p) 224#32 = 1#1 := hlt
  exact toNat_lt_of_signed (I p) (IntOp.cmpi_sge.1 hge') (IntOp.cmpi_slt.1 hlt')

/-- One array: if both "and"s over all positions are 1, every entry is below 224. -/
theorem inRange_of_all (I : IVec S4x224x224 32) (bc : S_.BroadcastsInDim S4x224x224 (![] : Fin 0 → Fin S4x224x224.rank))
    (hr : S4x224x224.ReducesTo [0, 1, 2] S_) (hn : 0 < S_.numel) (j : S_.Idx)
    (hge : Host.reduce IntOp.andi (cmpi .sge I (broadcastInDim S4x224x224 ![] bc (constantI S_ 32 0#32)))
      (constantI S_ 1 1#1) hr hn j = 1#1)
    (hlt : Host.reduce IntOp.andi (cmpi .slt I (broadcastInDim S4x224x224 ![] bc (constantI S_ 32 224#32)))
      (constantI S_ 1 1#1) hr hn j = 1#1) : Cert.Lookup.InRange I := fun p =>
  toNat_lt_of_cmp I bc p (Host.reduce_andi_all _ _ hr hn j hge p) (Host.reduce_andi_all _ _ hr hn j hlt p)

variable [Cert.Pre_finite_inputs.Facts]

/-- The precondition gives both index arrays in range. -/
theorem inRange_of_pre (a0 a1 : IVec Cert.Pre_finite_inputs.S4x224x224 32) (a2 a3 : FVec Ideal Cert.Pre_finite_inputs.S224x128 .f32)
    (h : Cert.Pre_finite_inputs.fn (F := Ideal) a0 a1 a2 a3 = fun _ => 1#1) : Cert.Lookup.InRange a0 ∧ Cert.Lookup.InRange a1 := by
  have h0 := congrFun h ValueIdx.ix0
  dsimp only [Cert.Pre_finite_inputs.fn, Cert.Pre_finite_inputs.fn_part1] at h0
  obtain ⟨h20, h23⟩ := IntOp.andi_eq_one.1 h0
  obtain ⟨h16, h19⟩ := IntOp.andi_eq_one.1 h20
  obtain ⟨h12, h15⟩ := IntOp.andi_eq_one.1 h16
  obtain ⟨_, h11⟩ := IntOp.andi_eq_one.1 h12
  exact ⟨inRange_of_all a0 _ _ _ _ h11 h15, inRange_of_all a1 _ _ _ _ h19 h23⟩

end Cert.Pre_finite_inputs.Range
-- ==== Proof.LibOneHotContraction.lean ====
/-
  Two general facts about a lookup done by a matrix product, for any sizes.

  * `sum_onehot`: a sum of products `T t · H t` in which `H` is one at a single position k and zero at every other
    position is `T k`. It holds on the extended reals with no finiteness assumption, because a product with zero is zero
    for every extended real.
  * `matmul_firstAxes_zero_at`: a matrix product that contracts the FIRST axis of a left operand [K, n] with the FIRST axis
    of a right operand [K, d] (the left operand transposed times the right one) into the zero accumulator, read at entry
    (r, c) at the ideal instance, is the sum over the contracted axis of `lhs[k, r] · rhs[k, c]`.

  Together: when column c of the right operand is one at row k and zero elsewhere, entry (r, c) of the product is
  `lhs[k, r]` — row k of the left operand gathered without indexing it.
-/
import Idealize.ShloMosaic.PureOps.Ideal.Laws
import Idealize.ShloMosaic.Lib.ValueIdx

noncomputable section

namespace Cert.Lib.OneHotContraction

open Idealize.ShloMosaic Idealize.ShloMosaic.ValueIdx

/-- A sum of products with a factor that is one at position k and zero at every other position is the other factor
    at k. -/
theorem sum_onehot {n : Nat} (T H : Fin n → EReal) (k : Fin n) (h1 : H k = 1) (h0 : ∀ t, t ≠ k → H t = 0) :
    ∑ t : Fin n, T t * H t = T k := by
  rw [Finset.sum_eq_single k (fun t _ ht => by rw [h0 t ht, mul_zero]) (fun h => absurd (Finset.mem_univ k) h), h1, mul_one]

/-- A matrix product contracting the first axes of both operands (left [K, n], right [K, d]) into the zero accumulator,
    read at entry (r, c): the sum over the contracted axis of the left operand's column r times the right operand's
    column c. The four hypotheses name the coordinates of the operands' indices at an output index and a contraction index
    (for a printed dimension record: the contracted axes by the library's `lhsIdx_val_of_single` / `rhsIdx_val_of_single`,
    the free axes by unfolding the index maps at their branch). -/
theorem matmul_firstAxes_zero_at {n K d : Nat} {φ₁ φ₂ : FTy}
    (D : DotDims ⟨2, ![K, n]⟩ ⟨2, ![K, d]⟩ ⟨2, ![n, d]⟩)
    (hr : D.contr.rank = 1) (hs : D.contr.size ⟨0, by omega⟩ = K)
    (hl0 : ∀ j q, (D.lhsIdx j q 0).val = (q ⟨0, by omega⟩).val)
    (hl1 : ∀ j q, (D.lhsIdx j q 1).val = (j 0).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![K, n]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 k r) * rhs (ix2 k c) := by
  refine (Ideal.matmul_constant_zero_apply D prec lhs rhs (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 k r := funext fun a => Fin.ext (by
    match a with
    | ⟨0, _⟩ => exact (hl0 _ _).trans hk
    | ⟨1, _⟩ => exact hl1 _ _)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.OneHotContraction

end
-- ==== Proof.Contract.lean ====
/-
  The kernel's matrix product read at one entry.

  The product contracts the FIRST axis of a table [224, 128] with the FIRST axis of a matrix [224, 1792] into the zero
  accumulator: entry (c, p) of the result is the sum over the 224 rows t of table[t, c] · matrix[t, p]. This is the general
  fact about such a product at the kernel's own dimension numbers, whose four coordinate maps are read off here.
-/
import proofs.«141317_g11948599017628_cont_main2_544_2_alg».proof.KernelIdeal
import proofs.«141317_g11948599017628_cont_main2_544_2_alg».proof.Proof.LibOneHotContraction

noncomputable section

namespace Cert.KernelIdeal.Contract

open Idealize.ShloMosaic Idealize.ShloMosaic.ValueIdx Cert.KernelIdeal Cert.KernelIdeal.Facts₀

variable [Facts]

/-- The product's dimension numbers: both operands contracted on their first axis. -/
abbrev D : DotDims S224x128 S224x1792 S128x1792 := dot_S224x128_S224x1792_S128x1792_0_0_1_1_n_n

/-- One axis is contracted, -/
theorem rank_contr : D.contr.rank = 1 := rfl

/-- of the tables' 224 rows. -/
theorem size_contr : D.contr.size ⟨0, by rw [rank_contr]; exact Nat.one_pos⟩ = 224 := rfl

/-- The table is read at the contraction position on its first axis, -/
theorem lhs_0 (i : S128x1792.Idx) (q : D.contr.Idx) :
    (D.lhsIdx i q 0).val = (q ⟨0, by rw [rank_contr]; exact Nat.one_pos⟩).val :=
  D.lhsIdx_val_of_single rfl i q

/-- and at the result's row on its second. -/
theorem lhs_1 (i : S128x1792.Idx) (q : D.contr.Idx) : (D.lhsIdx i q 1).val = (i 0).val := by
  unfold DotDims.lhsIdx
  rw [dif_neg (show ¬(1 : Fin S224x128.rank) ∈ D.lhsBatch from List.not_mem_nil),
    dif_pos (show (1 : Fin S224x128.rank) ∈ D.lhsNonContracting from List.mem_singleton.mpr rfl)]
  rfl

/-- The matrix is read at the contraction position on its first axis, -/
theorem rhs_0 (i : S128x1792.Idx) (q : D.contr.Idx) :
    (D.rhsIdx i q 0).val = (q ⟨0, by rw [rank_contr]; exact Nat.one_pos⟩).val :=
  D.rhsIdx_val_of_single rfl i q

/-- and at the result's column on its second. -/
theorem rhs_1 (i : S128x1792.Idx) (q : D.contr.Idx) : (D.rhsIdx i q 1).val = (i 1).val := by
  unfold DotDims.rhsIdx
  rw [dif_neg (show ¬(1 : Fin S224x1792.rank) ∈ D.rhsBatch from List.not_mem_nil),
    dif_pos (show (1 : Fin S224x1792.rank) ∈ D.rhsNonContracting from List.mem_singleton.mpr rfl)]
  rfl

/-- THE PRODUCT AT ENTRY (c, p): the sum over the rows t of table[t, c] · matrix[t, p]. -/
theorem matmul_at (T : FVec Ideal S224x128 .f32) (H : FVec Ideal S224x1792 .f32) (c : Fin 128) (p : Fin 1792) :
    matmul D none T H (constant (F := Ideal) S128x1792 .f32 0x00000000#32) (ix2 c p)
      = ∑ t : Fin 224, T (ix2 t c) * H (ix2 t p) := by
  exact Cert.Lib.OneHotContraction.matmul_firstAxes_zero_at D rank_contr size_contr lhs_0 lhs_1 rhs_0 rhs_1 none T H c p

end Cert.KernelIdeal.Contract

end
-- ==== Proof.Payload.lean ====
/-
  What the kernel body computes for one half of its output block, read at one entry.

  From a block of row numbers [1, 8, 224] the body lays the 8 · 224 positions out along one axis of length 1792, compares
  each with the row counter 0 … 223 running down the other axis, and turns the comparison into the numbers one and zero:
  a matrix [224, 1792] whose column at position (h, w) is one exactly at the row the block names there. The product of the
  table with this matrix, contracted over the rows, has at entry (c, (h, w)) the table's entry at that row and column c —
  every other term of the sum is a product with zero. The product [128, 1792] is then laid out as [128, 8, 224] and given a
  leading axis of length one.
-/
import proofs.«141317_g11948599017628_cont_main2_544_2_alg».proof.Proof.Gen.KernelIdeal.Skeleton
import proofs.«141317_g11948599017628_cont_main2_544_2_alg».proof.Proof.Contract
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

/-- The comparison of two words as a number: one when they are equal, zero when they are not. -/
theorem hot (x y : BitVec 32) :
    (FloatOps.sitofp (F := Ideal) .f32 ((IntOp.cmpi .eq x y).setWidth 32) : EReal) = if x = y then 1 else 0 := by
  by_cases h : x = y
  · rw [if_pos h, IntOp.cmpi_eq.mpr h]
    show (((BitVec.setWidth 32 (1#1 : BitVec 1)).toInt : ℝ) : EReal) = 1
    have e : (BitVec.setWidth 32 (1#1 : BitVec 1)).toInt = 1 := by decide
    rw [e]; simp
  · rw [if_neg h, eq_zero_of_ne_one (fun h1 => h (IntOp.cmpi_eq.mp h1))]
    show (((BitVec.setWidth 32 (0#1 : BitVec 1)).toInt : ℝ) : EReal) = 0
    have e : (BitVec.setWidth 32 (0#1 : BitVec 1)).toInt = 0 := by decide
    rw [e]; simp

/-- The row numbers of a block laid out along one axis: position (h, w) sits at h · 224 + w. -/
def flat (v0 : Vec Ideal S1x8x224 .i32) : IVec S1x1792 32 :=
  shapeCast S1x1792 (shapeCast S8x224 v0 shapeCasts_S1x8x224_S8x224) shapeCasts_S8x224_S1x1792

/-- The matrix of ones and zeros: entry (t, p) compares the row counter t with the row number at position p. -/
def onehot (v0 : Vec Ideal S1x8x224 .i32) : FVec Ideal S224x1792 .f32 :=
  sitofp .f32 (extui 32 (cmpi .eq (iota .tc S224x1792 32 [0] iota_S224x1792_d0_w32)
    (broadcastTo S224x1792 (flat v0) broadcasts_S1x1792_S224x1792)) natLt_1_32)

/-- The laid-out row numbers at position h · 224 + w are the block's at (0, h, w). -/
theorem flat_at (v0 : Vec Ideal S1x8x224 .i32) (h : Fin 8) (w : Fin 224) (p : Fin 1792) (hp : p.val = h.val * 224 + w.val) :
    flat v0 (ix2 (0 : Fin 1) p) = v0 (ix3 (0 : Fin 1) h w) := by
  unfold flat
  refine (shapeCast_apply _ _ (ix2 (0 : Fin 1) p) (ix2 h w) ?_).trans ?_
  · rw [Shape.rowMajor_val_two, Shape.rowMajor_val_two]
    show h.val * 224 + w.val = 0 * 1792 + p.val
    omega
  · refine (shapeCast_apply _ _ (ix2 h w) (ix3 (0 : Fin 1) h w) ?_).trans rfl
    rw [Shape.rowMajor_val_three, Shape.rowMajor_val_two]
    show (0 * 8 + h.val) * 224 + w.val = h.val * 224 + w.val
    omega

/-- THE MATRIX AT ENTRY (t, h · 224 + w): one when the block's row number at (0, h, w) is t, zero otherwise. -/
theorem onehot_at (v0 : Vec Ideal S1x8x224 .i32) (t : Fin 224) (h : Fin 8) (w : Fin 224) (p : Fin 1792)
    (hp : p.val = h.val * 224 + w.val) :
    onehot v0 (ix2 t p) = if BitVec.ofNat 32 t.val = v0 (ix3 (0 : Fin 1) h w) then 1 else 0 := by
  have hi : iota .tc S224x1792 32 [0] iota_S224x1792_d0_w32 (ix2 t p) = BitVec.ofNat 32 t.val :=
    iota_single_apply .tc S224x1792 32 0 iota_S224x1792_d0_w32 (ix2 t p)
  have hb : broadcastTo S224x1792 (flat v0) broadcasts_S1x1792_S224x1792 (ix2 t p) = v0 (ix3 (0 : Fin 1) h w) := by
    refine (broadcastTo_apply _ _ (ix2 t p) (ix2 (0 : Fin 1) p) ?_).trans (flat_at v0 h w p hp)
    intro a
    match a with
    | ⟨0, _⟩ => rfl
    | ⟨1, _⟩ => rfl
  show (FloatOps.sitofp (F := Ideal) .f32 ((IntOp.cmpi .eq (iota .tc S224x1792 32 [0] iota_S224x1792_d0_w32 (ix2 t p))
    (broadcastTo S224x1792 (flat v0) broadcasts_S1x1792_S224x1792 (ix2 t p))).setWidth 32) : EReal) = _
  rw [hi, hb]
  exact hot _ _

/-- The body's value for the first half of the block: the product of the table with the matrix of ones and zeros, laid
    out over (channel, row, column) under a leading axis of length one. -/
theorem pay1_eq (v0 : Vec Ideal S1x8x224 .i32) (v2 : Vec Ideal S224x128 .f32) :
    k0_pay1 (F := Ideal) v0 v2 = shapeCast S1x128x8x224 (shapeCast S128x8x224
      (matmul (φ₁ := .f32) (φ₂ := .f32) Contract.D none v2 (onehot v0) (constant (F := Ideal) S128x1792 .f32 0x00000000#32))
      shapeCasts_S128x1792_S128x8x224) shapeCasts_S128x8x224_S1x128x8x224 := rfl

/-- The second half is computed the same way from its own loads. -/
theorem pay2_eq (v14 : Vec Ideal S1x8x224 .i32) (v16 : Vec Ideal S224x128 .f32) :
    k0_pay2 (F := Ideal) v14 v16 = k0_pay1 (F := Ideal) v14 v16 := rfl

/-- A word below 2^32 written as a word again is itself. -/
theorem ofNat_toNat32 (k : BitVec 32) : BitVec.ofNat 32 k.toNat = k :=
  BitVec.eq_of_toNat_eq (by rw [BitVec.toNat_ofNat]; exact Nat.mod_eq_of_lt k.isLt)

/-- THE BODY'S VALUE AT (0, c, h, w): where the block's row number at (0, h, w) is below 224, the table's entry at that
    row and column c. -/
theorem pay1_at (v0 : Vec Ideal S1x8x224 .i32) (v2 : Vec Ideal S224x128 .f32) (c : Fin 128) (h : Fin 8) (w : Fin 224)
    (hk : (v0 (ix3 (0 : Fin 1) h w)).toNat < 224) :
    k0_pay1 (F := Ideal) v0 v2 (ix4 (0 : Fin 1) c h w)
      = v2 (ix2 (⟨(v0 (ix3 (0 : Fin 1) h w)).toNat, hk⟩ : Fin 224) c) := by
  rw [pay1_eq]
  have hp : h.val * 224 + w.val < 1792 := by have := h.isLt; have := w.isLt; omega
  refine (shapeCast_apply _ _ (ix4 (0 : Fin 1) c h w) (ix3 c h w) ?_).trans ?_
  · rw [Shape.rowMajor_val_three, Shape.rowMajor_val_four]
    show (c.val * 8 + h.val) * 224 + w.val = ((0 * 128 + c.val) * 8 + h.val) * 224 + w.val
    omega
  refine (shapeCast_apply _ _ (ix3 c h w) (ix2 c (⟨h.val * 224 + w.val, hp⟩ : Fin 1792)) ?_).trans ?_
  · rw [Shape.rowMajor_val_two, Shape.rowMajor_val_three]
    show c.val * 1792 + (h.val * 224 + w.val) = (c.val * 8 + h.val) * 224 + w.val
    omega
  refine (Contract.matmul_at v2 (onehot v0) c ⟨h.val * 224 + w.val, hp⟩).trans ?_
  refine Cert.Lib.OneHotContraction.sum_onehot (fun t => v2 (ix2 t c)) (fun t => onehot v0 (ix2 t ⟨h.val * 224 + w.val, hp⟩))
    ⟨(v0 (ix3 (0 : Fin 1) h w)).toNat, hk⟩ ?_ ?_
  · show onehot v0 (ix2 (⟨(v0 (ix3 (0 : Fin 1) h w)).toNat, hk⟩ : Fin 224) ⟨h.val * 224 + w.val, hp⟩) = 1
    rw [onehot_at v0 _ h w _ rfl]
    exact if_pos (ofNat_toNat32 _)
  · intro t ht
    show onehot v0 (ix2 t ⟨h.val * 224 + w.val, hp⟩) = 0
    rw [onehot_at v0 t h w _ rfl]
    refine if_neg fun e => ht (Fin.ext ?_)
    have e' := congrArg BitVec.toNat e
    rw [BitVec.toNat_ofNat] at e'
    have := t.isLt
    show t.val = (v0 (ix3 (0 : Fin 1) h w)).toNat
    omega

end Cert.KernelIdeal.Payload

end
-- ==== Proof.Block.lean ====
/-
  What the kernel body leaves in its output block, as one function of the four input blocks.

  The output block has shape [1, 256, 8, 224]: 256 channels over 8 rows and 224 columns of positions. The body stores it
  in two halves. Entry (0, ch, h, w) with ch < 128 lies in the first half and holds column ch of the row of the first table
  that the first block of row numbers names at (0, h, w); with ch ≥ 128 it lies in the second half and holds column ch − 128
  of the row of the second table that the second block names there. The two halves do not meet and together fill the block.
-/
import proofs.«141317_g11948599017628_cont_main2_544_2_alg».proof.Proof.Gen.KernelIdeal.Frame
import proofs.«141317_g11948599017628_cont_main2_544_2_alg».proof.Proof.Payload
import proofs.«141317_g11948599017628_cont_main2_544_2_alg».proof.Proof.Spec

noncomputable section

namespace Cert.KernelIdeal.Block

open Idealize.ShloMosaic Idealize.ShloMosaic.ValueIdx Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The position (0, h, w) of a block of row numbers that entry (0, ch, h, w) of the output block reads. -/
def bpos (y : S1x256x8x224.Idx) : S1x8x224.Idx :=
  ix3 (0 : Fin 1) (⟨(y 2).val, (y 2).isLt⟩ : Fin 8) (⟨(y 3).val, (y 3).isLt⟩ : Fin 224)

/-- THE OUTPUT BLOCK of the two blocks of row numbers and the two tables. -/
def Blk (x0 x1 : Vec Ideal S1x8x224 .i32) (x2 x3 : Vec Ideal S224x128 .f32) : Vec Ideal S1x256x8x224 .f32 := fun y =>
  if h : (y 1).val < 128 then Cert.Lookup.row x2 (x0 (bpos y)) ⟨(y 1).val, h⟩
  else Cert.Lookup.row x3 (x1 (bpos y)) ⟨(y 1).val - 128, by have : (y 1).val < 256 := (y 1).isLt; omega⟩

theorem Blk_lo (x0 x1 : Vec Ideal S1x8x224 .i32) (x2 x3 : Vec Ideal S224x128 .f32) (y : S1x256x8x224.Idx) (h : (y 1).val < 128) :
    Blk x0 x1 x2 x3 y = Cert.Lookup.row x2 (x0 (bpos y)) ⟨(y 1).val, h⟩ := dif_pos h

theorem Blk_hi (x0 x1 : Vec Ideal S1x8x224 .i32) (x2 x3 : Vec Ideal S224x128 .f32) (y : S1x256x8x224.Idx) (h : ¬ (y 1).val < 128)
    (h' : (y 1).val - 128 < 128) :
    Blk x0 x1 x2 x3 y = Cert.Lookup.row x3 (x1 (bpos y)) ⟨(y 1).val - 128, h'⟩ := dif_neg h

/-- The body's value for one half at (0, c, h, w), as a table lookup. -/
theorem pay1_row (v0 : Vec Ideal S1x8x224 .i32) (v2 : Vec Ideal S224x128 .f32) (c : Fin 128) (h : Fin 8) (w : Fin 224)
    (hk : (v0 (ix3 (0 : Fin 1) h w)).toNat < 224) :
    k0_pay1 (F := Ideal) v0 v2 (ix4 (0 : Fin 1) c h w) = Cert.Lookup.row v2 (v0 (ix3 (0 : Fin 1) h w)) c :=
  (Payload.pay1_at v0 v2 c h w hk).trans (Cert.Lookup.row_of_lt v2 _ c hk).symm

/-- An entry of a half, written by its coordinates. -/
theorem half_idx (x : S1x128x8x224.Idx) :
    x = ix4 (0 : Fin 1) (⟨(x 1).val, (x 1).isLt⟩ : Fin 128) (⟨(x 2).val, (x 2).isLt⟩ : Fin 8) (⟨(x 3).val, (x 3).isLt⟩ : Fin 224) :=
  funext fun a => Fin.ext (by
    match a with
    | ⟨0, _⟩ => show (x 0).val = 0; have : (x 0).val < 1 := (x 0).isLt; omega
    | ⟨1, _⟩ => rfl
    | ⟨2, _⟩ => rfl
    | ⟨3, _⟩ => rfl)

/-- The first store's piece is the block's first half. -/
theorem piece_lo (x0 x1 : Vec Ideal S1x8x224 .i32) (x2 x3 : Vec Ideal S224x128 .f32) (h0 : ∀ q, (x0 q).toNat < 224)
    (x : S1x128x8x224.Idx) :
    k0_pay1 (F := Ideal) x0 x2 x = Blk x0 x1 x2 x3 ((r0_2 : Rect S1x256x8x224).emb x) := by
  have hx1 : (x 1).val < 128 := (x 1).isLt
  have hlt : (((r0_2 : Rect S1x256x8x224).emb x) 1).val < 128 := by
    show 0 + 1 * (x 1).val < 128
    omega
  have hpos : ix3 (0 : Fin 1) (⟨(x 2).val, (x 2).isLt⟩ : Fin 8) (⟨(x 3).val, (x 3).isLt⟩ : Fin 224)
      = bpos ((r0_2 : Rect S1x256x8x224).emb x) :=
    funext fun a => Fin.ext (by
      match a with
      | ⟨0, _⟩ => rfl
      | ⟨1, _⟩ => show (x 2).val = 0 + 1 * (x 2).val; omega
      | ⟨2, _⟩ => show (x 3).val = 0 + 1 * (x 3).val; omega)
  rw [Blk_lo _ _ _ _ _ hlt, ← hpos]
  conv_lhs => rw [half_idx x]
  rw [pay1_row x0 x2 _ _ _ (h0 _)]
  exact congrArg _ (Fin.ext (by show (x 1).val = 0 + 1 * (x 1).val; omega))

/-- The second store's piece is the block's second half. -/
theorem piece_hi (x0 x1 : Vec Ideal S1x8x224 .i32) (x2 x3 : Vec Ideal S224x128 .f32) (h1 : ∀ q, (x1 q).toNat < 224)
    (x : S1x128x8x224.Idx) :
    k0_pay2 (F := Ideal) x1 x3 x = Blk x0 x1 x2 x3 ((r0_3 : Rect S1x256x8x224).emb x) := by
  have hx1 : (x 1).val < 128 := (x 1).isLt
  have hge : ¬ (((r0_3 : Rect S1x256x8x224).emb x) 1).val < 128 := by
    show ¬ 128 + 1 * (x 1).val < 128
    omega
  have hsub : (((r0_3 : Rect S1x256x8x224).emb x) 1).val - 128 < 128 := by
    show 128 + 1 * (x 1).val - 128 < 128
    omega
  have hpos : ix3 (0 : Fin 1) (⟨(x 2).val, (x 2).isLt⟩ : Fin 8) (⟨(x 3).val, (x 3).isLt⟩ : Fin 224)
      = bpos ((r0_3 : Rect S1x256x8x224).emb x) :=
    funext fun a => Fin.ext (by
      match a with
      | ⟨0, _⟩ => rfl
      | ⟨1, _⟩ => show (x 2).val = 0 + 1 * (x 2).val; omega
      | ⟨2, _⟩ => show (x 3).val = 0 + 1 * (x 3).val; omega)
  rw [Blk_hi _ _ _ _ _ hge hsub, ← hpos, Payload.pay2_eq]
  conv_lhs => rw [half_idx x]
  rw [pay1_row x1 x3 _ _ _ (h1 _)]
  exact congrArg _ (Fin.ext (by show (x 1).val = 128 + 1 * (x 1).val - 128; omega))

/-- What the body leaves is that block, when every row number of the two blocks is below 224: each store's piece is its
    half of the block, and the two pieces cover it. -/
theorem out_eq_blk (x0 x1 : Vec Ideal S1x8x224 .i32) (x2 x3 : Vec Ideal S224x128 .f32)
    (h0 : ∀ q, (x0 q).toNat < 224) (h1 : ∀ q, (x1 q).toNat < 224) :
    out0_4 (F := Ideal) x0 x1 x2 x3 = Blk x0 x1 x2 x3 := by
  funext y
  unfold out0_4
  simp only [View.ld_unit_zero (S := S1x8x224) hz3, View.ld_unit_zero (S := S224x128) hz2]
  refine View.canon_apply_of_pieces (Blk x0 x1 x2 x3) _ ?_ y (cover0_4 _ _ y)
  intro p hp x
  rcases List.mem_cons.mp hp with rfl | hp
  · exact piece_hi x0 x1 x2 x3 h1 x
  · rcases List.mem_cons.mp hp with rfl | hp
    · exact piece_lo x0 x1 x2 x3 h0 x
    · exact absurd hp List.not_mem_nil

end Cert.KernelIdeal.Block

end
-- ==== Proof.KernelValue.lean ====
/-
  The kernel's result array after its run.

  The grid has 4 · 28 points: point (b, g) works on batch b and on the eight rows 8g … 8g + 7 of positions. It reads the
  blocks [1, 8, 224] of the two arrays of row numbers at (b, 8g …, all columns), both tables whole, and writes back the
  block [1, 256, 8, 224] of the result at (b, all channels, 8g …, all columns). What it writes back is exactly that block
  of the function `Cert.Lookup.G` of the four argument arrays; the 112 blocks fill the result array; so after the run the
  result array is `G` of the arguments. This needs every row number to be below 224, which the precondition gives.
-/
import proofs.«141317_g11948599017628_cont_main2_544_2_alg».proof.Proof.Gen.KernelIdeal.Value
import proofs.«141317_g11948599017628_cont_main2_544_2_alg».proof.Proof.Block

set_option maxRecDepth 16384

noncomputable section

namespace Cert.KernelIdeal.LookupValue

open Cert.KernelIdeal Cert.KernelIdeal.Gen Idealize.ShloMosaic Idealize.ShloMosaic.TcCoe Idealize.SL.Sem
open Idealize.ShloMosaic.ValueIdx
open Idealize.ShloMosaic.Pipeline (Dat)

/-- One entry of an output block against the whole result: when the two blocks of row numbers are the arrays' entries at
    batch b and rows 8g …, the tables are read whole, and the array index i is the block index j moved to batch b and rows
    8g …, the block's entry at j is `G` at i. -/
theorem blk_at (I J : IVec Cert.Lookup.SPos 32) (TI TJ : FVec Ideal Cert.Lookup.STab .f32)
    (x0 x1 : Vec Ideal S1x8x224 .i32) (x2 x3 : Vec Ideal S224x128 .f32) (b g : Nat)
    (e0 : ∀ (q : S1x8x224.Idx) (p : Cert.Lookup.SPos.Idx), (p 0).val = b → (p 1).val = g * 8 + (q 1).val → (p 2).val = (q 2).val → x0 q = I p)
    (e1 : ∀ (q : S1x8x224.Idx) (p : Cert.Lookup.SPos.Idx), (p 0).val = b → (p 1).val = g * 8 + (q 1).val → (p 2).val = (q 2).val → x1 q = J p)
    (e2 : x2 = TI) (e3 : x3 = TJ)
    (j : S1x256x8x224.Idx) (i : Cert.Lookup.SRes.Idx) (hi0 : (i 0).val = b) (hi1 : (i 1).val = (j 1).val)
    (hi2 : (i 2).val = g * 8 + (j 2).val) (hi3 : (i 3).val = (j 3).val) :
    Block.Blk x0 x1 x2 x3 j = Cert.Lookup.G I J TI TJ i := by
  subst e2 e3
  have p0 : x0 (Block.bpos j) = I (Cert.Lookup.pos i) := e0 _ _ hi0 hi2 hi3
  have p1 : x1 (Block.bpos j) = J (Cert.Lookup.pos i) := e1 _ _ hi0 hi2 hi3
  have j1 : (j 1).val < 256 := (j 1).isLt
  by_cases hj : (j 1).val < 128
  · rw [Block.Blk_lo _ _ _ _ _ hj, Cert.Lookup.G_lo _ _ _ _ _ (show (i 1).val < 128 by omega), p0]
    exact congrArg _ (Fin.ext hi1.symm)
  · rw [Block.Blk_hi _ _ _ _ _ hj (by omega), Cert.Lookup.G_hi _ _ _ _ _ (show ¬ (i 1).val < 128 by omega) (by omega), p1]
    exact congrArg _ (Fin.ext (by show (j 1).val - 128 = (i 1).val - 128; omega))

variable (m : (ℓ : Loc nD τ sig) → Buf (Elt Ideal) ℓ) (ρ : Dev nD → PrngReg)

/-- The printed index maps, decided over the 112 grid points: the two blocks of row numbers sit at the output block's
    batch and row group, the tables and the output's channel and column axes are not cut, and the output's batch and
    row-group indices stay in range. -/
theorem idx_facts : ∀ t : Fin cfg0.N,
    win0_0.index t (0 : Fin 3) = win0_4.index t (0 : Fin 4) ∧ win0_0.index t (1 : Fin 3) = win0_4.index t (2 : Fin 4)
    ∧ win0_0.index t (2 : Fin 3) = 0
    ∧ win0_1.index t (0 : Fin 3) = win0_4.index t (0 : Fin 4) ∧ win0_1.index t (1 : Fin 3) = win0_4.index t (2 : Fin 4)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 4) = 0 ∧ win0_4.index t (3 : Fin 4) = 0
    ∧ win0_4.index t (0 : Fin 4) ≤ 3 ∧ win0_4.index t (2 : Fin 4) ≤ 27 :=
  (by decide +kernel : ∀ t : Fin grid0.N, _)

/-- Every (batch, row group) is some point's. -/
theorem idx_onto : ∀ (q0 : Fin 4) (q2 : Fin 28), ∃ t : Fin cfg0.N, win0_4.index t = ![q0.val, 0, q2.val, 0] :=
  (by decide +kernel : ∀ (q0 : Fin 4) (q2 : Fin 28), ∃ t : Fin grid0.N, win0_4.index t = ![q0.val, 0, q2.val, 0])

/-- WHAT POINT t WRITES BACK is block t of `G` of the argument arrays as the region finds them. -/
theorem flushed_eq (c : Dev nD) (t : Fin cfg0.N)
    (h0 : Cert.Lookup.InRange (V m c main_arg0)) (h1 : Cert.Lookup.InRange (V m c main_arg1)) :
    (dats m 0 c).flushed 4 t = ((cfg0.win 4).blk t).view.read (Elt Ideal)
      (Cert.Lookup.G (V m c main_arg0) (V m c main_arg1) (V m c main_arg2) (V m c main_arg3)) := by
  rw [Value.flushed4]
  obtain ⟨a00, a01, a02, a10, a11, a12, a20, a21, a30, a31, a41, a43, b40, b42⟩ := idx_facts t
  have r0 : ∀ q, (iblk m c 0 t q).toNat < 224 := fun q => h0 _
  have r1 : ∀ q, (iblk m c 1 t q).toNat < 224 := fun q => h1 _
  rw [Block.out_eq_blk (iblk m c 0 t) (iblk m c 1 t) (iblk m c 2 t) (iblk m c 3 t) r0 r1]
  funext j
  show Block.Blk (iblk m c 0 t) (iblk m c 1 t) (iblk m c 2 t) (iblk m c 3 t) j
    = Cert.Lookup.G (V m c main_arg0) (V m c main_arg1) (V m c main_arg2) (V m c main_arg3) (((cfg0.win 4).blk t).view.emb j)
  have j0 : (j 0).val < 1 := (j 0).isLt
  refine blk_at (V m c main_arg0) (V m c main_arg1) (V m c main_arg2) (V m c main_arg3)
    (iblk m c 0 t) (iblk m c 1 t) (iblk m c 2 t) (iblk m c 3 t) (win0_4.index t (0 : Fin 4)) (win0_4.index t (2 : Fin 4))
    ?_ ?_ ?_ ?_ j (((cfg0.win 4).blk t).view.emb j) ?_ ?_ ?_ ?_
  · intro q p hp0 hp1 hp2
    have q0 : (q 0).val < 1 := (q 0).isLt
    show V m c main_arg0 (((cfg0.win 0).blk t).view.emb q) = V m c main_arg0 p
    refine congrArg _ (funext fun a => Fin.ext ?_)
    match a with
    | ⟨0, _⟩ => show win0_0.index t (0 : Fin 3) * 1 + 1 * (q 0).val = (p 0).val; omega
    | ⟨1, _⟩ => show win0_0.index t (1 : Fin 3) * 8 + 1 * (q 1).val = (p 1).val; omega
    | ⟨2, _⟩ => show win0_0.index t (2 : Fin 3) * 224 + 1 * (q 2).val = (p 2).val; omega
  · intro q p hp0 hp1 hp2
    have q0 : (q 0).val < 1 := (q 0).isLt
    show V m c main_arg1 (((cfg0.win 1).blk t).view.emb q) = V m c main_arg1 p
    refine congrArg _ (funext fun a => Fin.ext ?_)
    match a with
    | ⟨0, _⟩ => show win0_1.index t (0 : Fin 3) * 1 + 1 * (q 0).val = (p 0).val; omega
    | ⟨1, _⟩ => show win0_1.index t (1 : Fin 3) * 8 + 1 * (q 1).val = (p 1).val; omega
    | ⟨2, _⟩ => show win0_1.index t (2 : Fin 3) * 224 + 1 * (q 2).val = (p 2).val; omega
  · funext q
    show V m c main_arg2 (((cfg0.win 2).blk t).view.emb q) = V m c main_arg2 q
    refine congrArg _ (funext fun a => Fin.ext ?_)
    match a with
    | ⟨0, _⟩ => show win0_2.index t (0 : Fin 2) * 224 + 1 * (q 0).val = (q 0).val; omega
    | ⟨1, _⟩ => show win0_2.index t (1 : Fin 2) * 128 + 1 * (q 1).val = (q 1).val; omega
  · funext q
    show V m c main_arg3 (((cfg0.win 3).blk t).view.emb q) = V m c main_arg3 q
    refine congrArg _ (funext fun a => Fin.ext ?_)
    match a with
    | ⟨0, _⟩ => show win0_3.index t (0 : Fin 2) * 224 + 1 * (q 0).val = (q 0).val; omega
    | ⟨1, _⟩ => show win0_3.index t (1 : Fin 2) * 128 + 1 * (q 1).val = (q 1).val; omega
  · show win0_4.index t (0 : Fin 4) * 1 + 1 * (j 0).val = win0_4.index t (0 : Fin 4); omega
  · show win0_4.index t (1 : Fin 4) * 256 + 1 * (j 1).val = (j 1).val; omega
  · show win0_4.index t (2 : Fin 4) * 8 + 1 * (j 2).val = win0_4.index t (2 : Fin 4) * 8 + (j 2).val; omega
  · show win0_4.index t (3 : Fin 4) * 224 + 1 * (j 3).val = (j 3).val; omega

/-- An index of the result array is in point t's block iff each coordinate is in the block's range on its axis. -/
theorem mem_blk (t : Fin cfg0.N) (i : S4x256x224x224.Idx) :
    i ∈ ((cfg0.win 4).blk t).view.set ↔ ∀ a : Fin 4, win0_4.index t a * S1x256x8x224.size a ≤ (i a).val
      ∧ (i a).val < win0_4.index t a * S1x256x8x224.size a + S1x256x8x224.size a := by
  show i ∈ ((View.whole main_v0).slice (win0_4.rect t)).set ↔ _
  rw [View.set_slice_whole, Rect.mem_set_unit]
  exact Iff.rfl

/-- Every index of the result array is in some point's block: the point of its batch and of its row's group of eight. -/
theorem cover (i : S4x256x224x224.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 224 := (i 2).isLt
  have hi3 : (i 3).val < 224 := (i 3).isLt
  obtain ⟨t, ht⟩ := idx_onto ⟨(i 0).val, hi0⟩ ⟨(i 2).val / 8, by omega⟩
  have q0 : win0_4.index t (0 : Fin 4) = (i 0).val := congrFun ht 0
  have q1 : win0_4.index t (1 : Fin 4) = 0 := congrFun ht 1
  have q2 : win0_4.index t (2 : Fin 4) = (i 2).val / 8 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 256 ≤ (i 1).val ∧ (i 1).val < win0_4.index t (1 : Fin 4) * 256 + 256; omega
  | ⟨2, _⟩ => show win0_4.index t (2 : Fin 4) * 8 ≤ (i 2).val ∧ (i 2).val < win0_4.index t (2 : Fin 4) * 8 + 8; omega
  | ⟨3, _⟩ => show win0_4.index t (3 : Fin 4) * 224 ≤ (i 3).val ∧ (i 3).val < win0_4.index t (3 : Fin 4) * 224 + 224; omega

/-- THE RESULT ARRAY after the run is `G` of the argument arrays. -/
theorem final (c : Dev nD)
    (h0 : Cert.Lookup.InRange (m ((c : Thread nD τ).loc main_arg0))) (h1 : Cert.Lookup.InRange (m ((c : Thread nD τ).loc main_arg1))) :
    (dats m 0 c).arrAt 4 cfg0.N = Cert.Lookup.G (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t h0 h1) cover

/-- THE RUN: every weakly fair execution ends with the result array at `G` of the arguments and the arguments unchanged,
    when the row numbers of both index arrays are below 224 on every core. -/
theorem run (hr : ∀ c : Dev nD, Cert.Lookup.InRange (m ((c : Thread nD τ).loc main_arg0)) ∧ Cert.Lookup.InRange (m ((c : Thread nD τ).loc main_arg1))) :
    θ_run defs (onTc (τ := τ) (main (F := Ideal))) ⟨m, fun _ => 0, ρ⟩ fun r => ∀ c : Dev nD,
      r.2.mem ((c : Thread nD τ).loc main_v0) = Cert.Lookup.G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c).1 (hr c).2), (h c).2⟩) (Value.run_blocks m ρ)

end Cert.KernelIdeal.LookupValue

end
-- ==== Proof.RefTerm.lean ====
/-
  The reference's result as one term of its four argument arrays, operation by operation.

  A lookup `take T I` of rows of a table `T` by an array `I` of row numbers: a negative row number is counted from the end
  (`wrapped`: 224 is added to it); the row numbers are given a trailing axis of length one (`starts`); a row number is
  `inside` when it lies in 0 … 223; the rows are gathered, and where the row number is not inside the entry is filled with
  the not-a-number word instead. The result transposes each lookup from [4, 224, 224, 128] to channels first
  [4, 128, 224, 224] and joins the two along the channel axis.
-/
import proofs.«141317_g11948599017628_cont_main2_544_2_alg».proof.ReferenceIdeal

noncomputable section

namespace Cert.ReferenceIdeal.RefTerm

open Idealize.ShloMosaic Cert.ReferenceIdeal Cert.ReferenceIdeal.Facts₀

variable {F : FTy → Type} [FloatOps F] [Facts]

/-- A row number as the lookup reads it: a negative one has 224 added. -/
def wrapped (I : IVec S4x224x224 32) : IVec S4x224x224 32 :=
  select (cmpi .slt I (broadcastInDim S4x224x224 ![] bcast_S_S4x224x224 (constantI S_ 32 0#32)))
    (addi I (broadcastInDim S4x224x224 ![] bcast_S_S4x224x224 (constantI S_ 32 224#32))) I

/-- The row numbers with a trailing axis of length one: the gather's start indices. -/
def starts (I : IVec S4x224x224 32) : IVec S4x224x224x1 32 :=
  broadcastInDim S4x224x224x1 ![0, 1, 2] bcast_S4x224x224_S4x224x224x1_0_1_2 (wrapped I)

/-- Whether each row number lies in 0 … 223 (a conjunction over the trailing axis of length one). -/
def inside (I : IVec S4x224x224 32) : IVec S4x224x224 1 :=
  Host.reduce IntOp.andi
    (andi (cmpi .sge (starts I) (broadcastInDim S4x224x224x1 ![] bcast_S_S4x224x224x1 (constantI S_ 32 0#32)))
      (cmpi .sle (starts I) (broadcastInDim S4x224x224x1 ![0, 1, 2, 3] bcast_S1x1x1x1_S4x224x224x1_0_1_2_3
        (broadcastInDim S1x1x1x1 ![3] bcast_S1_S1x1x1x1_3 (constantI S1 32 223#32)))))
    (constantI S_ 1 1#1) reducesTo_S4x224x224x1_S4x224x224_d3 h_S_

/-- The lookup: the gathered rows where the row number is inside, the not-a-number word elsewhere. -/
def take (T : FVec F S224x128 .f32) (I : IVec S4x224x224 32) : FVec F S4x224x224x128 .f32 :=
  select (broadcastInDim S4x224x224x128 ![0, 1, 2] bcast_S4x224x224_S4x224x224x128_0_1_2 (inside I))
    (Host.gather gather_S224x128_S4x224x224x1_S4x224x224x128_3_0_n_n_0_3_1128 T (starts I))
    (broadcastInDim S4x224x224x128 ![] bcast_S_S4x224x224x128 (constant S_ .f32 0x7FC00000#32))

/-- A lookup with the channel axis moved to second place. -/
def channelsFirst (X : FVec F S4x224x224x128 .f32) : FVec F S4x128x224x224 .f32 :=
  transpose S4x128x224x224 [0, 3, 1, 2] X transposes_S4x224x224x128_S4x128x224x224_0_3_1_2

/-- THE REFERENCE'S RESULT of its four arguments: the two lookups, channels first, joined along the channel axis. -/
def refOut (a0 a1 : IVec S4x224x224 32) (a2 a3 : FVec F S224x128 .f32) : FVec F S4x256x224x224 .f32 :=
  concatenate S4x256x224x224 1 [⟨S4x128x224x224, channelsFirst (take a2 a0)⟩, ⟨S4x128x224x224, channelsFirst (take a3 a1)⟩]
    concatenates_S4x128x224x224_S4x128x224x224_S4x256x224x224_d1

end Cert.ReferenceIdeal.RefTerm

end
-- ==== Proof.RefRun.lean ====
/-
  The reference's run, operation by operation.

  The reference program is a straight line once its two lookups are written out at their call sites: each lookup is the
  twenty-three operations of the row-number wrap (a comparison with zero, the sum with 224, the choice between them), the
  bounds test (both comparisons, their conjunction, its reduction over the trailing axis of length one), the gather of the
  rows, and the choice between the gathered rows and the not-a-number fill; after the two lookups come the two
  transpositions to channels first and the concatenation along the channel axis: forty-nine operations, each writing
  one buffer of its own from buffers written earlier or from the four arguments.

  From that the run is read back: every weakly fair execution terminates; the result buffer ends at the composed term
  of the four arguments' contents at launch (`RefTerm.refOut`), and the arguments' buffers, which no operation writes,
  end as they began.
-/
import proofs.«141317_g11948599017628_cont_main2_544_2_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-- The program's forty-nine operations in order: the first lookup (rows of the first table by the first array of row
    numbers) over its own buffers, the second lookup over its own, then the two transpositions and the concatenation. -/
abbrev ops : List (HloOp τ sig (Elt F)) :=
  [ TRef.nullary main_call0.c (constantI S_ 32 0#32),
    TRef.unary main_call0.c main_call0.v0 (broadcastInDim S4x224x224 ![] bcast_S_S4x224x224),
    TRef.binary (.of main_arg0) main_call0.v0 main_call0.v1 (cmpi .slt),
    TRef.nullary main_call0.c_0 (constantI S_ 32 224#32),
    TRef.unary main_call0.c_0 main_call0.v2 (broadcastInDim S4x224x224 ![] bcast_S_S4x224x224),
    TRef.binary (.of main_arg0) main_call0.v2 main_call0.v3 addi,
    TRef.ternary main_call0.v1 main_call0.v3 (.of main_arg0) main_call0.call0.v0 select,
    TRef.unary main_call0.call0.v0 main_call0.v5 (broadcastInDim S4x224x224x1 ![0, 1, 2] bcast_S4x224x224_S4x224x224x1_0_1_2),
    TRef.nullary main_call0.c_1 (constantI S1 32 223#32),
    TRef.nullary main_call0.c_2 (constantI S_ 32 0#32),
    TRef.unary main_call0.c_2 main_call0.v6 (broadcastInDim S4x224x224x1 ![] bcast_S_S4x224x224x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S4x224x224x1 ![0, 1, 2, 3] bcast_S1x1x1x1_S4x224x224x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x224x224x1_S4x224x224_d3 h_S_),
    TRef.binary (.of main_arg2) main_call0.v5 main_call0.v13 (fun x i => Host.gather gather_S224x128_S4x224x224x1_S4x224x224x128_3_0_n_n_0_3_1128 x i),
    TRef.unary main_call0.v12 main_call0.v14 (broadcastInDim S4x224x224x128 ![0, 1, 2] bcast_S4x224x224_S4x224x224x128_0_1_2),
    TRef.nullary main_call0.cst (constant S_ .f32 0x7FC00000#32),
    TRef.unary main_call0.cst main_call0.v15 (broadcastInDim S4x224x224x128 ![] bcast_S_S4x224x224x128),
    TRef.ternary main_call0.v14 main_call0.v13 main_call0.v15 main_call0.v16 select,
    TRef.nullary main_call1.c (constantI S_ 32 0#32),
    TRef.unary main_call1.c main_call1.v0 (broadcastInDim S4x224x224 ![] bcast_S_S4x224x224),
    TRef.binary (.of main_arg1) main_call1.v0 main_call1.v1 (cmpi .slt),
    TRef.nullary main_call1.c_0 (constantI S_ 32 224#32),
    TRef.unary main_call1.c_0 main_call1.v2 (broadcastInDim S4x224x224 ![] bcast_S_S4x224x224),
    TRef.binary (.of main_arg1) main_call1.v2 main_call1.v3 addi,
    TRef.ternary main_call1.v1 main_call1.v3 (.of main_arg1) main_call1.call0.v0 select,
    TRef.unary main_call1.call0.v0 main_call1.v5 (broadcastInDim S4x224x224x1 ![0, 1, 2] bcast_S4x224x224_S4x224x224x1_0_1_2),
    TRef.nullary main_call1.c_1 (constantI S1 32 223#32),
    TRef.nullary main_call1.c_2 (constantI S_ 32 0#32),
    TRef.unary main_call1.c_2 main_call1.v6 (broadcastInDim S4x224x224x1 ![] bcast_S_S4x224x224x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x224x224x1 ![0, 1, 2, 3] bcast_S1x1x1x1_S4x224x224x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x224x224x1_S4x224x224_d3 h_S_),
    TRef.binary (.of main_arg3) main_call1.v5 main_call1.v13 (fun x i => Host.gather gather_S224x128_S4x224x224x1_S4x224x224x128_3_0_n_n_0_3_1128 x i),
    TRef.unary main_call1.v12 main_call1.v14 (broadcastInDim S4x224x224x128 ![0, 1, 2] bcast_S4x224x224_S4x224x224x128_0_1_2),
    TRef.nullary main_call1.cst (constant S_ .f32 0x7FC00000#32),
    TRef.unary main_call1.cst main_call1.v15 (broadcastInDim S4x224x224x128 ![] bcast_S_S4x224x224x128),
    TRef.ternary main_call1.v14 main_call1.v13 main_call1.v15 main_call1.v16 select,
    unary main_v0 main_v2 ((transpose S4x128x224x224 [0, 3, 1, 2] · transposes_S4x224x224x128_S4x128x224x224_0_3_1_2) : (⟨S4x224x224x128, .f32⟩ : BufTy).Contents (Elt F) → (⟨S4x128x224x224, .f32⟩ : BufTy).Contents (Elt F)),
    unary main_v1 main_v3 ((transpose S4x128x224x224 [0, 3, 1, 2] · transposes_S4x224x224x128_S4x128x224x224_0_3_1_2) : (⟨S4x224x224x128, .f32⟩ : BufTy).Contents (Elt F) → (⟨S4x128x224x224, .f32⟩ : BufTy).Contents (Elt F)),
    binary main_v2 main_v3 main_v4 ((fun a b => concatenate S4x256x224x224 1 [⟨S4x128x224x224, a⟩, ⟨S4x128x224x224, b⟩] concatenates_S4x128x224x224_S4x128x224x224_S4x256x224x224_d1) : (⟨S4x128x224x224, .f32⟩ : BufTy).Contents (Elt F) → (⟨S4x128x224x224, .f32⟩ : BufTy).Contents (Elt F) → (⟨S4x256x224x224, .f32⟩ : BufTy).Contents (Elt F)) ]

-- forty-nine binds re-associated: the rewriting under the chain recurses once per statement
set_option maxRecDepth 4096 in
/-- The program is that straight line: with the lookup and the choice inside it unfolded at their calls and the calls'
    buffer records at their fields, both sides are one chain of steps once sequencing is re-associated. -/
theorem main_eq (c : Dev nD) : main (F := F) c = seq ops := by
  simp only [main, fn_take.body, fn_where.body, seq, bind_assoc, pure_bind]

attribute [local irreducible] Host.reduce Host.gather transpose concatenate broadcastInDim select cmpi addi andi in
set_option maxRecDepth 8192 in
set_option maxHeartbeats 400000 in
/-- What the result buffer holds after the operations is the composed term of the four arguments' contents: the fold
    over the operations unrolled, each operation's result either the buffer read (then its function of the buffers it
    reads) or another (then what was there), and a value moved to a buffer's own type and back is the value. The
    gather, the reduction, the transposition, the concatenation and the elementwise operations are kept folded
    meanwhile: the equation never looks inside them. -/
theorem out_eq (V : Valuation τ sig (Elt F)) :
    after ops V (main_v4 : DevRef τ sig)
      = RefTerm.refOut (V (main_arg0 : DevRef τ sig)) (V (main_arg1 : DevRef τ sig)) (V (main_arg2 : DevRef τ sig))
          (V (main_arg3 : DevRef τ sig)) := by
  simp only [after_cons, after_nil]
  unfold RefTerm.refOut RefTerm.take RefTerm.channelsFirst RefTerm.inside RefTerm.starts RefTerm.wrapped
  rfl

/-- No operation writes argument 0's buffer. -/
theorem arg0_eq (V : Valuation τ sig (Elt F)) :
    after ops V (main_arg0 : DevRef τ sig) = V (main_arg0 : DevRef τ sig) := by
  simp only [after_cons, after_nil]
  rfl

/-- No operation writes argument 1's buffer. -/
theorem arg1_eq (V : Valuation τ sig (Elt F)) :
    after ops V (main_arg1 : DevRef τ sig) = V (main_arg1 : DevRef τ sig) := by
  simp only [after_cons, after_nil]
  rfl

/-- No operation writes argument 2's buffer. -/
theorem arg2_eq (V : Valuation τ sig (Elt F)) :
    after ops V (main_arg2 : DevRef τ sig) = V (main_arg2 : DevRef τ sig) := by
  simp only [after_cons, after_nil]
  rfl

/-- No operation writes argument 3's buffer. -/
theorem arg3_eq (V : Valuation τ sig (Elt F)) :
    after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub ..⟩

/-- From any memory with zero counters: every weakly fair execution of the program terminates, and every final state
    has each buffer at the operations' fold over the contents at launch. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- THE RUN: every weakly fair execution of the reference terminates; the result buffer ends at the composed term of
    the four arguments' contents at launch, and the four arguments end unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4) = RefTerm.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefRun

end
-- ==== Proof.RefValue.lean ====
/-
  The reference's result read at one index.

  The reference looks two tables up by two arrays of row numbers, moves the channel axis of each lookup to second place and
  joins the two along it. Read at a result index (b, ch, h, w): a join of two arrays of 128 channels is the first at ch when
  ch < 128 and the second at ch - 128 otherwise; the transposition [0, 3, 1, 2] read at (b, c, h, w) is its operand at
  (b, h, w, c); and a lookup read at (b, h, w, c) is, when the row number k at (b, h, w) is below 224, column c of row k of
  the table. The last has four parts. A word below 224 is non-negative read as a signed integer, so the wrap-around of
  negative row numbers leaves it alone. Both range tests (0 ≤ k and k ≤ 223, signed) give the bit 1, and the conjunction
  over the axis of length one starting from the bit 1 is 1, so the lookup keeps the gathered entry and not the filler. The
  gather reads the table at the row number (read signed, held inside 0 … 223) and the column c. And a word below 224 read
  signed and then as a natural number is its value.
-/
import proofs.«141317_g11948599017628_cont_main2_544_2_alg».proof.Proof.RefTerm
import proofs.«141317_g11948599017628_cont_main2_544_2_alg».proof.Proof.Spec
import Idealize.ShloMosaic.Lib.ValueIdx
import Idealize.ShloMosaic.Lib.Pipeline.Value
import Idealize.ShloMosaic.PureOps.Reduce

noncomputable section

namespace Cert.ReferenceIdeal.RefValue

open Idealize.ShloMosaic Idealize.ShloMosaic.ValueIdx Cert.ReferenceIdeal Cert.ReferenceIdeal.Facts₀
  Cert.ReferenceIdeal.RefTerm Cert.Lookup

/-! ## Words below 224 -/

/-- A word below 224 read as a signed integer is its value. -/
theorem toInt_of_lt (k : BitVec 32) (hk : k.toNat < 224) : k.toInt = (k.toNat : Int) := by
  rw [BitVec.toInt_eq_toNat_cond, if_pos (by omega)]

/-- A word below 224 is not negative: the test "k < 0" (signed) gives the bit 0. -/
theorem slt_zero (k : BitVec 32) (hk : k.toNat < 224) : IntOp.cmpi .slt k 0#32 = 0#1 := by
  have h : k.slt 0#32 = false := by
    rw [BitVec.slt, toInt_of_lt k hk]
    simp
  show BitVec.ofBool (k.slt 0#32) = 0#1
  rw [h]; rfl

/-- The test "k ≥ 0" (signed) gives the bit 1. -/
theorem sge_zero (k : BitVec 32) (hk : k.toNat < 224) : IntOp.cmpi .sge k 0#32 = 1#1 := by
  have h : (0#32).sle k = true := by
    rw [BitVec.sle, toInt_of_lt k hk]
    simp
  show BitVec.ofBool ((0#32).sle k) = 1#1
  rw [h]; rfl

/-- The test "k ≤ 223" (signed) gives the bit 1. -/
theorem sle_223 (k : BitVec 32) (hk : k.toNat < 224) : IntOp.cmpi .sle k 223#32 = 1#1 := by
  have h : k.sle 223#32 = true := by
    rw [BitVec.sle, toInt_of_lt k hk]
    have : (223#32 : BitVec 32).toInt = 223 := by decide
    rw [this]
    simp only [decide_eq_true_eq]
    omega
  show BitVec.ofBool (k.sle 223#32) = 1#1
  rw [h]; rfl

/-- A word below 224, read signed, then as a natural number and held at most 223, is the word's value held at most 223. -/
theorem clamp_of_lt (k : BitVec 32) (hk : k.toNat < 224) : min k.toInt.toNat 223 = min k.toNat 223 := by
  rw [toInt_of_lt k hk]; rfl

/-! ## The row numbers as the lookup reads them -/

variable [Facts]

/-- A row number below 224 is not wrapped around. -/
theorem wrapped_apply (I : IVec S4x224x224 32) (p : S4x224x224.Idx) (hp : (I p).toNat < 224) : wrapped I p = I p := by
  show Scalar.select (IntOp.cmpi .slt (I p) 0#32) (IntOp.addi (I p) 224#32) (I p) = I p
  rw [slt_zero (I p) hp, select_zero]

/-- The start indices hold the row numbers: below 224 everywhere when the row numbers are. -/
theorem starts_lt (I : IVec S4x224x224 32) (hI : InRange I) (q : S4x224x224x1.Idx) : (starts I q).toNat < 224 := by
  show (wrapped I _).toNat < 224
  rw [wrapped_apply I _ (hI _)]
  exact hI _

/-- A left fold by "and" from the bit 1 over words that are all 1 is 1. -/
theorem foldl_andi_one {ι : Type} (x : ι → BitVec 1) : ∀ (l : List ι), (∀ i ∈ l, x i = 1#1) →
    l.foldl (fun r i => IntOp.andi r (x i)) 1#1 = 1#1
  | [], _ => rfl
  | a :: l, h => by
    rw [List.foldl_cons, h a (List.mem_cons_self ..)]
    exact foldl_andi_one x l (fun i hi => h i (List.mem_cons_of_mem _ hi))

/-- Every row number is inside 0 … 223 when every row number is below 224. -/
theorem inside_apply (I : IVec S4x224x224 32) (hI : InRange I) (p : S4x224x224.Idx) : inside I p = 1#1 := by
  unfold inside
  rw [Host.reduce_eq_foldl]
  refine foldl_andi_one _ _ (fun q _ => ?_)
  show IntOp.andi (IntOp.cmpi .sge (starts I q) 0#32) (IntOp.cmpi .sle (starts I q) 223#32) = 1#1
  rw [sge_zero _ (starts_lt I hI q), sle_223 _ (starts_lt I hI q)]
  rfl

/-! ## The gather read at an index -/

local notation "𝒟" => gather_S224x128_S4x224x224x1_S4x224x224x128_3_0_n_n_0_3_1128

/-- The start-indices index (b, h, w, 0) of the lookup's index (b, h, w, c). -/
abbrev startIdx (y : S4x224x224x128.Idx) : S4x224x224x1.Idx :=
  ix4 (⟨(y 0).val, (y 0).isLt⟩ : Fin 4) (⟨(y 1).val, (y 1).isLt⟩ : Fin 224) (⟨(y 2).val, (y 2).isLt⟩ : Fin 224)
    (⟨0, Nat.one_pos⟩ : Fin 1)

/-- THE GATHER READ AT (b, h, w, c): the table at the start index at (b, h, w, 0), read signed and held inside 0 … 223, and
    at column c. On the table's row axis, which the gather collapses, the operand index is the start alone; on its column
    axis, the one offset axis, it is the result's last coordinate alone. -/
theorem gather_apply {α : Type} (x : S224x128.Idx → α) (idx : IVec S4x224x224x1 32) (y : S4x224x224x128.Idx) :
    Host.gather 𝒟 x idx y
      = x (ix2 (⟨min (idx (startIdx y)).toInt.toNat 223, by omega⟩ : Fin 224) (⟨(y 3).val, (y 3).isLt⟩ : Fin 128)) := by
  unfold Host.gather
  congr 1
  funext a
  refine Fin.ext ?_
  match a with
  | ⟨0, _⟩ =>
    show (𝒟).start y idx 0 + (𝒟).batchCoord y 0 + (𝒟).offCoord y 0 = min (idx (startIdx y)).toInt.toNat 223
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (𝒟).startIndexMap from List.mem_singleton.mpr rfl)]
    have hsi : (𝒟).siIdx y ⟨List.idxOf (0 : Fin 2) (𝒟).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (𝒟).start y idx 1 + (𝒟).batchCoord y 1 + (𝒟).offCoord y 1 = (y 3).val
    have h1 : (𝒟).start y idx 1 = 0 := by
      unfold GatherDims.start
      exact dif_neg (fun h => absurd (List.mem_singleton.mp h) (by decide))
    rw [h1, GatherDims.batchCoord_eq_zero _ _ _ List.not_mem_nil]
    simp only [Nat.add_zero, Nat.zero_add]
    unfold GatherDims.offCoord
    rw [dif_pos (show (1 : Fin 2) ∈ (𝒟).sKept from (GatherDims.mem_sKept _ _).mpr
      ⟨fun h => absurd (List.mem_singleton.mp h) (by decide), List.not_mem_nil⟩)]
    rfl

/-! ## A lookup read at an index -/

/-- The position (b, h, w) of the lookup's index (b, h, w, c). -/
abbrev posOf (y : S4x224x224x128.Idx) : S4x224x224.Idx :=
  ix3 (⟨(y 0).val, (y 0).isLt⟩ : Fin 4) (⟨(y 1).val, (y 1).isLt⟩ : Fin 224) (⟨(y 2).val, (y 2).isLt⟩ : Fin 224)

/-- The start index at (b, h, w, 0) is the row number at (b, h, w), as the lookup reads it. -/
theorem starts_apply (I : IVec S4x224x224 32) (y : S4x224x224x128.Idx) : starts I (startIdx y) = wrapped I (posOf y) := by
  unfold starts
  exact broadcastInDim_apply _ _ _ _ (posOf y) (fun a => match a with
    | ⟨0, _⟩ => rfl
    | ⟨1, _⟩ => rfl
    | ⟨2, _⟩ => rfl)

/-- THE LOOKUP READ AT (b, h, w, c), every row number below 224: column c of the row of the table that the row number at
    (b, h, w) names. -/
theorem take_apply (T : FVec Ideal S224x128 .f32) (I : IVec S4x224x224 32) (hI : InRange I) (y : S4x224x224x128.Idx) :
    take T I y = row T (I (posOf y)) (⟨(y 3).val, (y 3).isLt⟩ : Fin 128) := by
  unfold take
  rw [select_apply]
  have hcond : broadcastInDim S4x224x224x128 ![0, 1, 2] bcast_S4x224x224_S4x224x224x128_0_1_2 (inside I) y = 1#1 :=
    inside_apply I hI _
  rw [hcond, select_one, gather_apply]
  unfold row
  refine congrArg T (congrArg (fun r => ix2 r _) (Fin.ext ?_))
  show min (starts I (startIdx y)).toInt.toNat 223 = min (I (posOf y)).toNat 223
  rw [starts_apply, wrapped_apply I _ (hI _), clamp_of_lt _ (hI _)]

/-! ## The channel axis moved to second place, and the two lookups joined along it -/

/-- The transposition read at (b, c, h, w) is its operand at (b, h, w, c). -/
theorem channelsFirst_apply (X : FVec Ideal S4x224x224x128 .f32) (b : Fin 4) (c : Fin 128) (h w : Fin 224) :
    channelsFirst X (ix4 b c h w) = X (ix4 b h w c) := by
  unfold channelsFirst
  exact transpose_apply _ _ _ _ (ix4 b h w c) (fun a => match a with
    | ⟨0, _⟩ => rfl
    | ⟨1, _⟩ => rfl
    | ⟨2, _⟩ => rfl
    | ⟨3, _⟩ => rfl)

/-- Below channel 128 the result is the first lookup, channels first, at the same coordinates. -/
theorem refOut_lo (a0 a1 : IVec S4x224x224 32) (a2 a3 : FVec Ideal S224x128 .f32) (y : S4x256x224x224.Idx)
    (hc : (y 1).val < 128) :
    refOut a0 a1 a2 a3 y = channelsFirst (take a2 a0)
      (ix4 (⟨(y 0).val, (y 0).isLt⟩ : Fin 4) (⟨(y 1).val, hc⟩ : Fin 128) (⟨(y 2).val, (y 2).isLt⟩ : Fin 224)
        (⟨(y 3).val, (y 3).isLt⟩ : Fin 224)) := by
  unfold refOut
  exact concatenate_pair_apply_left 1 (channelsFirst (take a2 a0)) (channelsFirst (take a3 a1)) _ y rfl
    (ix4 (⟨(y 0).val, (y 0).isLt⟩ : Fin 4) (⟨(y 1).val, hc⟩ : Fin 128) (⟨(y 2).val, (y 2).isLt⟩ : Fin 224)
      (⟨(y 3).val, (y 3).isLt⟩ : Fin 224)) (fun b => match b with
    | ⟨0, _⟩ => rfl
    | ⟨1, _⟩ => rfl
    | ⟨2, _⟩ => rfl
    | ⟨3, _⟩ => rfl)

/-- From channel 128 on the result is the second lookup, channels first, at the channel less 128. -/
theorem refOut_hi (a0 a1 : IVec S4x224x224 32) (a2 a3 : FVec Ideal S224x128 .f32) (y : S4x256x224x224.Idx)
    (hc : ¬ (y 1).val < 128) (hc' : (y 1).val - 128 < 128) :
    refOut a0 a1 a2 a3 y = channelsFirst (take a3 a1)
      (ix4 (⟨(y 0).val, (y 0).isLt⟩ : Fin 4) (⟨(y 1).val - 128, hc'⟩ : Fin 128) (⟨(y 2).val, (y 2).isLt⟩ : Fin 224)
        (⟨(y 3).val, (y 3).isLt⟩ : Fin 224)) := by
  unfold refOut
  refine concatenate_pair_apply_right 1 (channelsFirst (take a2 a0)) (channelsFirst (take a3 a1)) _ y rfl rfl
    (ix4 (⟨(y 0).val, (y 0).isLt⟩ : Fin 4) (⟨(y 1).val - 128, hc'⟩ : Fin 128) (⟨(y 2).val, (y 2).isLt⟩ : Fin 224)
      (⟨(y 3).val, (y 3).isLt⟩ : Fin 224)) (fun b hb => ?_) ?_
  · match b, hb with
    | ⟨0, _⟩, _ => rfl
    | ⟨1, _⟩, hb => exact absurd rfl hb
    | ⟨2, _⟩, _ => rfl
    | ⟨3, _⟩, _ => rfl
  · show (y 1).val - 128 + 128 = (y 1).val
    omega

/-! ## The reference's result is the specification -/

/-- THE REFERENCE'S RESULT, every row number of both index arrays below 224, is the lookup of the specification. -/
theorem refOut_eq_G (a0 a1 : IVec Cert.ReferenceIdeal.S4x224x224 32) (a2 a3 : FVec Ideal Cert.ReferenceIdeal.S224x128 .f32)
    (h0 : Cert.Lookup.InRange a0) (h1 : Cert.Lookup.InRange a1) :
    Cert.ReferenceIdeal.RefTerm.refOut (F := Ideal) a0 a1 a2 a3 = Cert.Lookup.G a0 a1 a2 a3 := by
  funext y
  by_cases hc : (y 1).val < 128
  · rw [G_lo _ _ _ _ y hc, refOut_lo _ _ _ _ y hc, channelsFirst_apply, take_apply _ _ h0]
    rfl
  · have h256 : (y 1).val < 256 := (y 1).isLt
    have hc' : (y 1).val - 128 < 128 := by omega
    rw [G_hi _ _ _ _ y hc hc', refOut_hi _ _ _ _ y hc hc', channelsFirst_apply, take_apply _ _ h1]
    rfl

end Cert.ReferenceIdeal.RefValue

end
-- ==== Proof.lean ====
/-
  A position-embedding lookup: the kernel against its reference, at the ideal instance.

  Two tables of 224 rows and 128 columns and two arrays of row numbers of shape [4, 224, 224] give a result of shape
  [4, 256, 224, 224]: channel ch < 128 at (b, h, w) is column ch of the row of the first table that the first array names
  at (b, h, w); channel ch ≥ 128 is column ch − 128 of the row of the second table that the second array names there
  (`Cert.Lookup.G`).

  The kernel never indexes a table. For a block of positions it builds a matrix of ones and zeros whose column at a
  position is one exactly at the row named there, and multiplies the table by it, contracting the rows: entry (c, position)
  of the product is the sum over the rows t of table[t, c] · [t is the named row], which is table[named row, c], every
  other term being a product with zero (zero for every extended real, so the tables' finiteness is not used). The
  reference gathers the rows directly, after counting a negative row number from the end and replacing the row of a number
  outside 0 … 223 by a not-a-number fill. The two agree exactly where every row number lies in 0 … 223, which the
  precondition states; outside that range they differ (the kernel's product is zero there).

  The proof: the precondition gives the range (`PreRange`); under it the kernel's result array after its run is `G` of the
  arguments (`KernelValue`: what each grid point writes back is its block of `G`, and the blocks fill the array); the
  reference's run ends with its result at its operations' term (`RefRun`), which under the range is `G` of the arguments
  index by index (`RefValue`). The three programs' frames are their runs with the result dropped; the idealization
  rewrote no operation, so there is nothing to preserve.
-/
import proofs.«141317_g11948599017628_cont_main2_544_2_alg».proof.Defs
import proofs.«141317_g11948599017628_cont_main2_544_2_alg».proof.Proof.Gen.Kernel
import proofs.«141317_g11948599017628_cont_main2_544_2_alg».proof.Proof.Gen.Kernel.Skeleton
import proofs.«141317_g11948599017628_cont_main2_544_2_alg».proof.Proof.Gen.Kernel.Launch
import proofs.«141317_g11948599017628_cont_main2_544_2_alg».proof.Proof.Gen.Kernel.Points
import proofs.«141317_g11948599017628_cont_main2_544_2_alg».proof.Proof.Gen.Kernel.Frame
import proofs.«141317_g11948599017628_cont_main2_544_2_alg».proof.Proof.Gen.KernelIdeal
import proofs.«141317_g11948599017628_cont_main2_544_2_alg».proof.Proof.Gen.KernelIdeal.Skeleton
import proofs.«141317_g11948599017628_cont_main2_544_2_alg».proof.Proof.Gen.KernelIdeal.Launch
import proofs.«141317_g11948599017628_cont_main2_544_2_alg».proof.Proof.Gen.KernelIdeal.Points
import proofs.«141317_g11948599017628_cont_main2_544_2_alg».proof.Proof.Gen.KernelIdeal.Frame
import proofs.«141317_g11948599017628_cont_main2_544_2_alg».proof.Proof.Gen.KernelIdeal.Value
import proofs.«141317_g11948599017628_cont_main2_544_2_alg».proof.Proof.Gen.ReferenceIdeal
import proofs.«141317_g11948599017628_cont_main2_544_2_alg».proof.Proof.Gen.Pre_finite_inputs
import proofs.«141317_g11948599017628_cont_main2_544_2_alg».proof.Proof.PreRange
import proofs.«141317_g11948599017628_cont_main2_544_2_alg».proof.Proof.KernelValue
import proofs.«141317_g11948599017628_cont_main2_544_2_alg».proof.Proof.RefRun
import proofs.«141317_g11948599017628_cont_main2_544_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments, with every row number in 0 … 223, both programs end with the result at
    `Cert.Lookup.G` of the arguments. -/
theorem algebraic : Cert.algebraic_KernelIdeal_ReferenceIdeal := by
  intro m ρ m' ρ' hpre hagree
  have hr : ∀ c : Dev Cert.KernelIdeal.nD,
      Cert.Lookup.InRange (m ((c.tc : Thread Cert.KernelIdeal.nD Cert.KernelIdeal.τ).loc Cert.KernelIdeal.main_arg0))
      ∧ Cert.Lookup.InRange (m ((c.tc : Thread Cert.KernelIdeal.nD Cert.KernelIdeal.τ).loc Cert.KernelIdeal.main_arg1)) :=
    fun c => Cert.Pre_finite_inputs.Range.inRange_of_pre _ _ _ _ (hpre c)
  refine ⟨_, Cert.KernelIdeal.LookupValue.run m ρ hr, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.refOut_eq_G _ _ _ _ (hr c).1 (hr c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
